-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩

abbrev nBuf : Space → Nat
  | .hbm => 101
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x1, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its result named.

  @main is four stretches of host operations around three pallas regions. The library's theorem for such a program takes the
  program as a list of segments, a thread state per boundary that each segment's precondition follows from, the first state
  made from what the launch deals, and a reading of the last state against the final memory. The segments, the contents at
  every boundary (a fold of the host stretches and of what each region writes back) and the regions' own records are the
  generated ones, cited by name. The thread state between segments is "every buffer the program does not scope is held at
  the boundary's contents; the generator register is at some state; nothing is owed"; the last one is read against the final
  memory buffer by buffer. Read at the result buffer this gives the program's value, the last boundary's contents there;
  read at the arguments it gives them back as launched.
-/
import proofs.«169086_j7327214207620_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The obligations of the library's theorem, one by one -/

/-- @main is the run of its seven segments. -/
theorem main_is_segments (c : Dev nD) (Q : PUnit → sProp 𝕄) :
    wp frame (wpE (defs (F := F)) 𝒱₀.lift (c.tc : Thread nD τ) none) Set.univ (Pipeline.Seg.run (segs m ρ)) Q
      ⊢ wp frame (wpE (defs (F := F)) 𝒱₀.lift (c.tc : Thread nD τ) none) Set.univ (main (F := F) c) Q := by
  rw [main_run m ρ c]

/-- Each of the three pipelines is entered once. -/
theorem pipelines_once : (Pipeline.Seg.pipes (segs m ρ)).Nodup := by
  simp only [segs, Pipeline.Seg.pipes_host, Pipeline.Seg.pipes_region, Pipeline.Seg.pipes_nil]
  decide

/-- The launch's ghost element is the pipelines' initial one; no core gets anything more. -/
theorem launch_ghost :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
            (Pipeline.launchToks (Pipeline.pin (pcfgs (F := F)) adm) cellOf_inj)))
          ∗ bigSep Finset.univ fun _ : Dev nD => (iprop(emp) : sProp 𝕄)) := by
  iintro H
  imodintro
  isplitl [H]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact H
  · iapply (show (BI.emp : sProp 𝕄) ⊢ bigSep Finset.univ (fun _ : Dev nD => (BI.emp : sProp 𝕄)) from by
      rw [BI.bigSep_emp_const])
    iempintro

/-- What a host stretch leaves is regrouped into the last thread state and the core's (empty) debt. -/
theorem last_state (c : Dev nD) :
    (Pipeline.Seg.post (.host (hseg hostOps3 hostOps3_sub hostOps3_fresh (W6 m ρ)) :
        Pipeline.Seg (pcfgs (F := F)) adm (pdats m ρ) () defs₀ 𝒱₀ L lv) c : sProp 𝕄)
      ⊢ iprop(Tₙ m ρ c ∗ ∃ W, owes (c.tc : Thread nD τ) (0 : CellTallies nD τ sig Unit) W) := by
  dsimp only [Pipeline.Seg.post, hseg, Pipeline.HostSeg.ofOps]
  iintro ⟨Hheld, Hreg, Howes⟩
  isplitr [Howes]
  · isplitl [Hheld]
    · iexact Hheld
    · iexact Hreg
  · iexact Howes

/-- Every segment starts from what the one before leaves: the generated segments are stated at the boundary contents, so
    each step is the identity, and the last is `last_state`. -/
theorem states_chain :
    Pipeline.Seg.Chains (fun c => iprop(StableHlo.held (c : Thread nD τ) (Pipeline.ucRefs τ sig) (W0 m ρ c) ∗ R (F := F) c))
      (segs m ρ) (fun c => iprop(Tₙ m ρ c ∗ ∃ W, owes (c.tc : Thread nD τ) (0 : CellTallies nD τ sig Unit) W)) :=
  ⟨fun _ => .rfl, fun _ => .rfl, fun _ => .rfl, fun _ => .rfl, fun _ => .rfl, fun _ => .rfl, fun _ => .rfl,
    fun c => last_state m ρ c⟩

/-- The first thread state from what the launch deals to a core: its unscoped buffers are held at the launch memory, its
    generator register is at the launch value, it owes nothing; the rest of the deal is not needed. -/
theorem first_state (c : Dev nD) :
    iprop(iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c
        ∗ prngReg c (ρ c) ∗ (iprop(emp) : sProp 𝕄)) ∗ levAts L lv)
      ⊢ |={Set.univ}=> iprop(StableHlo.held (c : Thread nD τ) (Pipeline.ucRefs τ sig) (W0 m ρ c) ∗ R (F := F) c) := by
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hheld, -, Howes, -, Hreg, -⟩, -⟩
  imodintro
  isplitl [Hheld]
  · iexact Hheld
  isplitl [Hreg]
  · iexists _
    iexact Hreg
  · iexists ∅
    iexact Howes

/-- The last thread state read against a final memory: every unscoped buffer holds the last boundary's contents. -/
theorem final_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W7 m ρ c b⌝ ∗ SI s') := by
  iintro ⟨⟨Hheld, -⟩, HSI⟩
  unfold StableHlo.held
  imodintro
  iapply (pointsTo_read_all (Pipeline.ucRefs τ sig) (fun b => (((c : Thread nD τ)).1, b)) (W7 m ρ c) s')
  isplitl [Hheld]
  · iexact Hheld
  · iexact HSI

/-! ## The run -/

set_option maxHeartbeats 1000000 in
set_option backward.isDefEq.respectTransparency.types false in
/-- Every weakly fair execution of @main terminates without a fault; the result buffer ends at the last boundary's contents
    and the eight argument arrays end as launched. -/
theorem run_result : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    ?hmain ?hnd (O₀ := 0) (hL := fun _ _ => rfl) (G := fun _ => iprop(emp))
    (u₀ := initOf (Pipeline.cells cfgs cellOf_inj) (Pipeline.launchToks cfgs cellOf_inj)) ?hu
    (T₀ := fun c => iprop(StableHlo.held (c : Thread nD τ) (Pipeline.ucRefs τ sig) (W0 m ρ c) ∗ R c)) (Tₙ := Tₙ m ρ)
    ?hch ?hinit
    (QY := fun c s => ∀ b ∈ Pipeline.ucRefs τ sig, s.mem (((c : Thread nD τ)).1, b) = W7 m ρ c b) ?hfin ?hQ
  case hmain => exact main_is_segments m ρ
  case hnd => exact pipelines_once m ρ
  case hu => exact launch_ghost
  case hch => exact states_chain m ρ
  case hinit => exact Pipeline.initEach L lv fun c => first_state m ρ c
  case hfin => exact final_read m ρ
  intro s h c
  exact ⟨h c _ (mem_uc main_v76 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩

end Cert.KernelIdeal.Run

end
-- ==== Proof.LayerSpec.lean ====
/-
  The dense half of one graph-convolution layer, entry by entry, over the extended reals.

  A layer multiplies the node features h : [50000, 128] by a weight W : [128, 128]; from the second layer on the features
  first get the previous layer's bias added and are clamped below at zero. Entry (r, f) of the product depends on row r of
  the features alone:

      lin h W (r, f)        = Σ_k h[r, k] · W[k, f]
      actLin h b W (r, f)   = Σ_k max (h[r, k] + b[0, k]) 0 · W[k, f]        (b a [1, 128] row)

  so any tiling of the rows into blocks computes the same array. The zero of the clamp is kept as the f32 zero word read as
  an extended real: both programs carry that same word and it is never evaluated.
-/
import Idealize.ShloMosaic.PureOps.Ideal.Laws
import Idealize.ShloMosaic.Lib.ValueIdx

noncomputable section

open scoped BigOperators

namespace Cert.Gcn

open Idealize.ShloMosaic Idealize.ShloMosaic.ValueIdx

/-- Node features, one block of rows, a weight, a bias row. -/
abbrev SNode : Shape := ⟨2, ![50000, 128]⟩
abbrev SBlock : Shape := ⟨2, ![5000, 128]⟩
abbrev SWeight : Shape := ⟨2, ![128, 128]⟩
abbrev SRow : Shape := ⟨2, ![1, 128]⟩

/-- The clamp's zero: the f32 zero word as an extended real. -/
abbrev zeroWord : Ideal .f32 := Ideal.ofBits .f32 0x00000000#32

/-- `h @ W`: entry (r, f) is Σ_k h[r, k] · W[k, f]. -/
def lin (h : FVec Ideal SNode .f32) (w : FVec Ideal SWeight .f32) : FVec Ideal SNode .f32 :=
  fun i => ∑ k : Fin 128, h (ix2 (i 0) k) * w (ix2 k (i 1))

theorem lin_apply (h : FVec Ideal SNode .f32) (w : FVec Ideal SWeight .f32) (r : Fin 50000) (f : Fin 128) :
    lin h w (ix2 r f) = ∑ k : Fin 128, h (ix2 r k) * w (ix2 k f) := rfl

/-- `max (h + b) 0 @ W` with b one row broadcast over the nodes: entry (r, f) is Σ_k max (h[r, k] + b[0, k]) 0 · W[k, f]. -/
def actLin (h : FVec Ideal SNode .f32) (b : FVec Ideal SRow .f32) (w : FVec Ideal SWeight .f32) : FVec Ideal SNode .f32 :=
  fun i => ∑ k : Fin 128, max (h (ix2 (i 0) k) + b (ix2 (0 : Fin 1) k)) zeroWord * w (ix2 k (i 1))

theorem actLin_apply (h : FVec Ideal SNode .f32) (b : FVec Ideal SRow .f32) (w : FVec Ideal SWeight .f32)
    (r : Fin 50000) (f : Fin 128) :
    actLin h b w (ix2 r f) = ∑ k : Fin 128, max (h (ix2 r k) + b (ix2 (0 : Fin 1) k)) zeroWord * w (ix2 k f) := rfl

end Cert.Gcn

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.BlockValue.lean ====
/-
  What each of the three kernel bodies stores, read at one entry, over the extended reals.

  Every body loads a block of 5000 rows of the features (and, from the second layer on, the bias row) and the whole weight,
  rounds both operands to bf16 — the identity on extended reals — and multiplies them on the matrix unit from the zero splat.
  So entry (p, f) of what the first body stores is Σ_k x[p, k] · W[k, f], and of what the other two store is
  Σ_k max (x[p, k] + b[0, k]) 0 · W[k, f]: the bias row is broadcast down the block's rows, the clamp is pointwise, and the two
  shape casts of the body keep the shape.
-/
import proofs.«169086_j7327214207620_1_alg».proof.Proof.Gen.KernelIdeal.Skeleton
import proofs.«169086_j7327214207620_1_alg».proof.Proof.LayerSpec
import proofs.«169086_j7327214207620_1_alg».proof.Proof.LibDotInner
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Gcn

/-! ## The matrix unit's dimension numbers: rows of the left operand, columns of the right, one contracted axis -/

theorem dot_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

theorem dot_rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

theorem dot_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix unit of this kernel from the zero splat: entry (p, f) is Σ_k lhs[p, k] · rhs[k, f], whatever the operands'
    formats. -/
theorem unit_apply {φ₁ φ₂ : FTy} (lhs : FVec Ideal S5000x128 φ₁) (rhs : FVec Ideal S128x128 φ₂) (p : Fin 5000) (f : Fin 128) :
    FloatOps.matmul dot_S5000x128_S128x128_S5000x128_1_0_0_1_n_n none lhs rhs (constant (F := Ideal) S5000x128 .f32 0x00000000#32) (ix2 p f)
      = ∑ k : Fin 128, lhs (ix2 p k) * rhs (ix2 k f) :=
  DotInner.matmul_zero_apply dot_S5000x128_S128x128_S5000x128_1_0_0_1_n_n rfl rfl dot_lhs_row dot_lhs_contr dot_rhs_contr dot_rhs_col
    none lhs rhs p f

/-! ## The first layer's body: the plain product -/

theorem first_apply (x : Vec Ideal S5000x128 .f32) (w : Vec Ideal S128x128 .f32) (p : Fin 5000) (f : Fin 128) :
    k0_pay1 (F := Ideal) x w (ix2 p f) = ∑ k : Fin 128, x (ix2 p k) * w (ix2 k f) := by
  unfold k0_pay1
  exact unit_apply _ _ p f

/-! ## The later layers' bodies: bias row added, clamped at zero, then the product -/

/-- The bias row broadcast down the block, added and clamped, at (p, k). -/
theorem act_apply (x : Vec Ideal S5000x128 .f32) (b : Vec Ideal S1x128 .f32) (p : Fin 5000) (k : Fin 128) :
    maximumf (addf (shapeCast S5000x128 x shapeCasts_S5000x128_S5000x128)
        (broadcastTo S5000x128 (shapeCast S1x128 b shapeCasts_S1x128_S1x128) broadcasts_S1x128_S5000x128))
      (broadcast S5000x128 (Scalar.ofBits (F := Ideal) .f32 0x00000000#32)) (ix2 p k)
      = max (x (ix2 p k) + b (ix2 (0 : Fin 1) k)) zeroWord := by
  rw [shapeCast_self, shapeCast_self]
  show max (x (ix2 p k) + broadcastTo S5000x128 b broadcasts_S1x128_S5000x128 (ix2 p k)) _ = _
  rw [broadcastTo_1b_ab_apply]
  rfl

theorem second_apply (x : Vec Ideal S5000x128 .f32) (b : Vec Ideal S1x128 .f32) (w : Vec Ideal S128x128 .f32)
    (p : Fin 5000) (f : Fin 128) :
    k1_pay1 (F := Ideal) x b w (ix2 p f) = ∑ k : Fin 128, max (x (ix2 p k) + b (ix2 (0 : Fin 1) k)) zeroWord * w (ix2 k f) := by
  unfold k1_pay1
  refine (unit_apply _ _ p f).trans (Finset.sum_congr rfl fun k _ => ?_)
  exact congrArg (· * w (ix2 k f)) (act_apply x b p k)

theorem third_apply (x : Vec Ideal S5000x128 .f32) (b : Vec Ideal S1x128 .f32) (w : Vec Ideal S128x128 .f32)
    (p : Fin 5000) (f : Fin 128) :
    k2_pay1 (F := Ideal) x b w (ix2 p f) = ∑ k : Fin 128, max (x (ix2 p k) + b (ix2 (0 : Fin 1) k)) zeroWord * w (ix2 k f) := by
  unfold k2_pay1
  refine (unit_apply _ _ p f).trans (Finset.sum_congr rfl fun k _ => ?_)
  exact congrArg (· * w (ix2 k f)) (act_apply x b p k)

end Cert.KernelIdeal.BlockValue

end
-- ==== Proof.FirstRegion.lean ====
/-
  The first pallas region as one array: x @ W0 over all 50000 rows.

  The region runs its body on ten blocks of 5000 rows; block t of the output holds, at (p, f), Σ_k x[5000·t + p, k] · W[k, f].
  The blocks tile the rows, so the output array after the region is `lin` of the feature array and the weight as the
  region found them.
-/
import proofs.«169086_j7327214207620_1_alg».proof.Proof.Gen.KernelIdeal.Frame
import proofs.«169086_j7327214207620_1_alg».proof.Proof.BlockValue
import Idealize.ShloMosaic.Lib.Pipeline.Value

set_option maxRecDepth 16384

noncomputable section

open scoped BigOperators

namespace Cert.KernelIdeal.FirstRegion

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: at point t the feature block and the output block are block-row t, every other
    window sits at the origin. -/
theorem block_index : ∀ t : Fin cfg0.N,
    win0_0.index t (0 : Fin 2) = t.val ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block-row t of the whole-array product: row p of the block is row 5000·t + p of the features,
    and the entry reads that row alone. -/
theorem flushed_eq (c : Dev nD) (t : Fin cfg0.N) :
    (dat0 (F := Ideal) V c).flushed 3 t = ((cfg0.win 3).blk t).view.read (Elt Ideal) (lin (V c main_arg0) (V c main_arg2)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin]
  obtain ⟨e00, e01, e20, e21, e30, e31⟩ := block_index t
  funext j
  obtain ⟨p, f, rfl⟩ : ∃ (p : Fin 5000) (f : Fin 128), j = ix2 p f := ⟨j 0, j 1, eq_ix2 j⟩
  show k0_pay1 (iblk0 V c 0 t) (iblk0 V c 2 t) (ix2 p f) = (lin (V c main_arg0) (V c main_arg2)) (((cfg0.win 3).blk t).view.emb (ix2 p f))
  refine (BlockValue.first_apply _ _ p f).trans (Finset.sum_congr rfl fun k _ => ?_)
  have hx : ((cfg0.win 0).blk t).view.emb (ix2 p k) = ix2 ((((cfg0.win 3).blk t).view.emb (ix2 p f)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ((cfg0.win 2).blk t).view.emb (ix2 k f) = ix2 k ((((cfg0.win 3).blk t).view.emb (ix2 p f)) 1) := by
    funext a; apply Fin.ext
    match a with
    | ⟨0, _⟩ => show win0_2.index t (0 : Fin 2) * 128 + 1 * k.val = k.val; omega
    | ⟨1, _⟩ => show win0_2.index t (1 : Fin 2) * 128 + 1 * f.val = win0_3.index t (1 : Fin 2) * 128 + 1 * f.val; omega
  exact congrArg₂ (· * ·) (congrArg (V c main_arg0) hx) (congrArg (V c main_arg2) hw)

/-- An entry of the array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v30).slice (win0_3.rect t)).set ↔ _
  rw [View.set_slice_whole, Rect.mem_set_unit]
  exact Iff.rfl

/-- The ten blocks of 5000 rows cover the 50000 rows: row r is in block r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, e30, e31⟩ := block_index (⟨(i 0).val / 5000, ht⟩ : Fin cfg0.N)
  have e30' : win0_3.index (⟨(i 0).val / 5000, ht⟩ : Fin cfg0.N) (0 : Fin 2) = (i 0).val / 5000 := e30
  refine ⟨⟨(i 0).val / 5000, ht⟩, flush0_3 _, ?_⟩
  rw [mem_block]
  intro a
  match a with
  | ⟨0, _⟩ =>
    show win0_3.index _ (0 : Fin 2) * 5000 ≤ (i 0).val ∧ (i 0).val < win0_3.index _ (0 : Fin 2) * 5000 + 5000
    omega
  | ⟨1, _⟩ =>
    show win0_3.index _ (1 : Fin 2) * 128 ≤ (i 1).val ∧ (i 1).val < win0_3.index _ (1 : Fin 2) * 128 + 128
    omega

/-- THE ARRAY the region leaves: the whole-array product of what it found in its operands' arrays. -/
theorem array_eq (c : Dev nD) : (dat0 (F := Ideal) V c).arrAt 3 cfg0.N = lin (V c main_arg0) (V c main_arg2) :=
  (dat0 V c).arrAt_eq_of_cover 3 _ (fun t _ => flushed_eq V c t) covered

end Cert.KernelIdeal.FirstRegion

end
-- ==== Proof.SecondRegion.lean ====
/-
  The second pallas region as one array: max (h + b0) 0 @ W1 over all 50000 rows.

  The region runs its body on ten blocks of 5000 rows of the aggregated features h, with the bias as one [1, 128] row and the
  whole weight at every point; block t of the output holds, at (p, f), Σ_k max (h[5000·t + p, k] + b[0, k]) 0 · W[k, f].
  The blocks tile the rows, so the output array after the region is `actLin` of the three arrays as the region found them.
-/
import proofs.«169086_j7327214207620_1_alg».proof.Proof.Gen.KernelIdeal.Frame
import proofs.«169086_j7327214207620_1_alg».proof.Proof.BlockValue
import Idealize.ShloMosaic.Lib.Pipeline.Value

set_option maxRecDepth 16384

noncomputable section

open scoped BigOperators

namespace Cert.KernelIdeal.SecondRegion

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: at point t the feature block and the output block are block-row t, every other
    window sits at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block-row t of the whole-array product: row p of the block is row 5000·t + p of the features,
    and the entry reads that row alone. -/
theorem flushed_eq (c : Dev nD) (t : Fin cfg1.N) :
    (dat1 (F := Ideal) V c).flushed 3 t = ((cfg1.win 3).blk t).view.read (Elt Ideal) (actLin (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x128) origin]
  obtain ⟨e00, e01, e10, e11, e20, e21, e30, e31⟩ := block_index t
  funext j
  obtain ⟨p, f, rfl⟩ : ∃ (p : Fin 5000) (f : Fin 128), j = ix2 p f := ⟨j 0, j 1, eq_ix2 j⟩
  show k1_pay1 (iblk1 V c 0 t) (iblk1 V c 1 t) (iblk1 V c 2 t) (ix2 p f) = (actLin (V c main_v43) (V c main_v44) (V c main_arg4)) (((cfg1.win 3).blk t).view.emb (ix2 p f))
  refine (BlockValue.second_apply _ _ _ p f).trans (Finset.sum_congr rfl fun k _ => ?_)
  have hx : ((cfg1.win 0).blk t).view.emb (ix2 p k) = ix2 ((((cfg1.win 3).blk t).view.emb (ix2 p f)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hw : ((cfg1.win 2).blk t).view.emb (ix2 k f) = ix2 k ((((cfg1.win 3).blk t).view.emb (ix2 p f)) 1) := by
    funext a; apply Fin.ext
    match a with
    | ⟨0, _⟩ => show win1_2.index t (0 : Fin 2) * 128 + 1 * k.val = k.val; omega
    | ⟨1, _⟩ => show win1_2.index t (1 : Fin 2) * 128 + 1 * f.val = win1_3.index t (1 : Fin 2) * 128 + 1 * f.val; omega
  have hb : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  exact congrArg₂ (· * ·) (congrArg₂ (fun u v => max (u + v) zeroWord) (congrArg (V c main_v43) hx) (congrArg (V c main_v44) hb))
    (congrArg (V c main_arg4) hw)

/-- An entry of the array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- The ten blocks of 5000 rows cover the 50000 rows: row r is in block r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨-, -, -, -, -, -, e30, e31⟩ := block_index (⟨(i 0).val / 5000, ht⟩ : Fin cfg1.N)
  have e30' : win1_3.index (⟨(i 0).val / 5000, ht⟩ : Fin cfg1.N) (0 : Fin 2) = (i 0).val / 5000 := e30
  refine ⟨⟨(i 0).val / 5000, ht⟩, flush1_3 _, ?_⟩
  rw [mem_block]
  intro a
  match a with
  | ⟨0, _⟩ =>
    show win1_3.index _ (0 : Fin 2) * 5000 ≤ (i 0).val ∧ (i 0).val < win1_3.index _ (0 : Fin 2) * 5000 + 5000
    omega
  | ⟨1, _⟩ =>
    show win1_3.index _ (1 : Fin 2) * 128 ≤ (i 1).val ∧ (i 1).val < win1_3.index _ (1 : Fin 2) * 128 + 128
    omega

/-- THE ARRAY the region leaves: the whole-array product of what it found in its operands' arrays. -/
theorem array_eq (c : Dev nD) : (dat1 (F := Ideal) V c).arrAt 3 cfg1.N = actLin (V c main_v43) (V c main_v44) (V c main_arg4) :=
  (dat1 V c).arrAt_eq_of_cover 3 _ (fun t _ => flushed_eq V c t) covered

end Cert.KernelIdeal.SecondRegion

end
-- ==== Proof.ThirdRegion.lean ====
/-
  The third pallas region as one array: max (h + b1) 0 @ W2 over all 50000 rows.

  The region runs its body on ten blocks of 5000 rows of the aggregated features h, with the bias as one [1, 128] row and the
  whole weight at every point; block t of the output holds, at (p, f), Σ_k max (h[5000·t + p, k] + b[0, k]) 0 · W[k, f].
  The blocks tile the rows, so the output array after the region is `actLin` of the three arrays as the region found them.
-/
import proofs.«169086_j7327214207620_1_alg».proof.Proof.Gen.KernelIdeal.Frame
import proofs.«169086_j7327214207620_1_alg».proof.Proof.BlockValue
import Idealize.ShloMosaic.Lib.Pipeline.Value

set_option maxRecDepth 16384

noncomputable section

open scoped BigOperators

namespace Cert.KernelIdeal.ThirdRegion

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the ten grid points: at point t the feature block and the output block are block-row t, every other
    window sits at the origin. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block-row t of the whole-array product: row p of the block is row 5000·t + p of the features,
    and the entry reads that row alone. -/
theorem flushed_eq (c : Dev nD) (t : Fin cfg2.N) :
    (dat2 (F := Ideal) V c).flushed 3 t = ((cfg2.win 3).blk t).view.read (Elt Ideal) (actLin (V c main_v58) (V c main_v59) (V c main_arg6)) := by
  show (cfg2.win 3).cut (grid2.coords t) ((dat2 V c).after 3 t) = _
  rw [after2_3]
  unfold out2_3
  rw [View.canon_unit_zero origin]
  simp only [View.ld_unit_zero (S := S5000x128) origin, View.ld_unit_zero (S := S1x128) origin, View.ld_unit_zero (S := S128x128) origin]
  obtain ⟨e00, e01, e10, e11, e20, e21, e30, e31⟩ := block_index t
  funext j
  obtain ⟨p, f, rfl⟩ : ∃ (p : Fin 5000) (f : Fin 128), j = ix2 p f := ⟨j 0, j 1, eq_ix2 j⟩
  show k2_pay1 (iblk2 V c 0 t) (iblk2 V c 1 t) (iblk2 V c 2 t) (ix2 p f) = (actLin (V c main_v58) (V c main_v59) (V c main_arg6)) (((cfg2.win 3).blk t).view.emb (ix2 p f))
  refine (BlockValue.third_apply _ _ _ p f).trans (Finset.sum_congr rfl fun k _ => ?_)
  have hx : ((cfg2.win 0).blk t).view.emb (ix2 p k) = ix2 ((((cfg2.win 3).blk t).view.emb (ix2 p f)) 0) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have hw : ((cfg2.win 2).blk t).view.emb (ix2 k f) = ix2 k ((((cfg2.win 3).blk t).view.emb (ix2 p f)) 1) := by
    funext a; apply Fin.ext
    match a with
    | ⟨0, _⟩ => show win2_2.index t (0 : Fin 2) * 128 + 1 * k.val = k.val; omega
    | ⟨1, _⟩ => show win2_2.index t (1 : Fin 2) * 128 + 1 * f.val = win2_3.index t (1 : Fin 2) * 128 + 1 * f.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  exact congrArg₂ (· * ·) (congrArg₂ (fun u v => max (u + v) zeroWord) (congrArg (V c main_v58) hx) (congrArg (V c main_v59) hb))
    (congrArg (V c main_arg6) hw)

/-- An entry of the array is in point t's block iff each coordinate is in the block's range on its axis. -/
theorem mem_block (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v60).slice (win2_3.rect t)).set ↔ _
  rw [View.set_slice_whole, Rect.mem_set_unit]
  exact Iff.rfl

/-- The ten blocks of 5000 rows cover the 50000 rows: row r is in block r / 5000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, e30, e31⟩ := block_index (⟨(i 0).val / 5000, ht⟩ : Fin cfg2.N)
  have e30' : win2_3.index (⟨(i 0).val / 5000, ht⟩ : Fin cfg2.N) (0 : Fin 2) = (i 0).val / 5000 := e30
  refine ⟨⟨(i 0).val / 5000, ht⟩, flush2_3 _, ?_⟩
  rw [mem_block]
  intro a
  match a with
  | ⟨0, _⟩ =>
    show win2_3.index _ (0 : Fin 2) * 5000 ≤ (i 0).val ∧ (i 0).val < win2_3.index _ (0 : Fin 2) * 5000 + 5000
    omega
  | ⟨1, _⟩ =>
    show win2_3.index _ (1 : Fin 2) * 128 ≤ (i 1).val ∧ (i 1).val < win2_3.index _ (1 : Fin 2) * 128 + 128
    omega

/-- THE ARRAY the region leaves: the whole-array product of what it found in its operands' arrays. -/
theorem array_eq (c : Dev nD) : (dat2 (F := Ideal) V c).arrAt 3 cfg2.N = actLin (V c main_v58) (V c main_v59) (V c main_arg6) :=
  (dat2 V c).arrAt_eq_of_cover 3 _ (fun t _ => flushed_eq V c t) covered

end Cert.KernelIdeal.ThirdRegion

end
-- ==== Proof.ReferenceStages.lean ====
/-
  The reference's three products, read against the layer's entry-by-entry form.

  The reference computes each layer as a whole-array `dot_general` contracting the features' columns with the weight's rows:
  entry (r, f) is Σ_k lhs[r, k] · W[k, f]. In the first layer the left operand is the input; in the second and third it is
  the previous layer's aggregate with its bias — a [128] vector broadcast to a row and then down the 50000 nodes — added and
  the sum clamped below at zero. A [128] vector broadcast to [1, 128] and the same vector reshaped to [1, 128] have the same
  entries, which is the one place where the two programs spell the bias row differently.
-/
import proofs.«169086_j7327214207620_1_alg».proof.Proof.Gen.ReferenceIdeal.Read
import proofs.«169086_j7327214207620_1_alg».proof.Proof.LayerSpec
import Idealize.ShloMosaic.Lib.Pipeline.Value
import Idealize.ShloMosaic.Lib.ValueIdx
import Idealize.ShloMosaic.Lib.ValueLayout

noncomputable section

open scoped BigOperators

namespace Cert.ReferenceIdeal.Stages

open Cert.ReferenceIdeal Cert.ReferenceIdeal.Gen Idealize.ShloMosaic Idealize.ShloMosaic.ValueIdx Cert.Gcn

/-- The first layer's product is `lin` of the input and the first weight. -/
theorem first_product (x0 : (⟨S50000x128, .f32⟩ : BufTy).Contents (Elt Ideal)) (x2 : (⟨S128x128, .f32⟩ : BufTy).Contents (Elt Ideal)) :
    Read.val_main_v29 (F := Ideal) x0 x2 = lin x0 x2 := by
  funext i
  obtain ⟨r, f, rfl⟩ : ∃ (r : Fin 50000) (f : Fin 128), i = ix2 r f := ⟨i 0, i 1, eq_ix2 i⟩
  rw [Read.val_main_v29_apply, lin_apply]
  refine Finset.sum_congr rfl fun k _ => ?_
  have el : Read.lidx_main_v29 (ix2 r f) k = ix2 r k := funext fun a => Fin.ext (by
    match a with
    | ⟨0, _⟩ => rfl
    | ⟨1, _⟩ => rfl)
  have er : Read.ridx_main_v29 (ix2 r f) k = ix2 k f := funext fun a => Fin.ext (by
    match a with
    | ⟨0, _⟩ => rfl
    | ⟨1, _⟩ => rfl)
  rw [el, er]

/-- The second layer's product is `actLin` of the first aggregate, the first bias as a row, and the second weight. -/
theorem second_product (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (hc : S128.ShapeCasts S1x128) :
    Read.val_main_v47 (F := Ideal) x0 x1 x2 x3 x4
      = actLin (Read.val_main_v42 (F := Ideal) x0 x1 x2) (shapeCast S1x128 x3 hc) x4 := by
  funext i
  obtain ⟨r, f, rfl⟩ : ∃ (r : Fin 50000) (f : Fin 128), i = ix2 r f := ⟨i 0, i 1, eq_ix2 i⟩
  rw [Read.val_main_v47_apply, actLin_apply]
  refine Finset.sum_congr rfl fun k _ => ?_
  have el : Read.lidx_main_v47 (ix2 r f) k = ix2 r k := funext fun a => Fin.ext (by
    match a with
    | ⟨0, _⟩ => rfl
    | ⟨1, _⟩ => rfl)
  have er : Read.ridx_main_v47 (ix2 r f) k = ix2 k f := funext fun a => Fin.ext (by
    match a with
    | ⟨0, _⟩ => rfl
    | ⟨1, _⟩ => rfl)
  have eb : Read.idx_main_v43 (Read.idx_main_v44 (ix2 r k)) = ix1 k := funext fun a => Fin.ext (by
    match a with
    | ⟨0, _⟩ => rfl)
  rw [el, er, Read.val_main_v46_apply, Read.val_main_v45_apply, Read.val_main_v44_apply, Read.val_main_v43_apply, eb, Read.val_main_call0_v0_apply,
    Read.val_main_call0_cst_apply, shapeCast_a_1a_apply]
  rfl

/-- The third layer's product is `actLin` of the second aggregate, the second bias as a row, and the third weight. -/
theorem third_product (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal))
    (hc : S128.ShapeCasts S1x128) :
    Read.val_main_v65 (F := Ideal) x0 x1 x2 x3 x4 x5 x6
      = actLin (Read.val_main_v60 (F := Ideal) x0 x1 x2 x3 x4) (shapeCast S1x128 x5 hc) x6 := by
  funext i
  obtain ⟨r, f, rfl⟩ : ∃ (r : Fin 50000) (f : Fin 128), i = ix2 r f := ⟨i 0, i 1, eq_ix2 i⟩
  rw [Read.val_main_v65_apply, actLin_apply]
  refine Finset.sum_congr rfl fun k _ => ?_
  have el : Read.lidx_main_v65 (ix2 r f) k = ix2 r k := funext fun a => Fin.ext (by
    match a with
    | ⟨0, _⟩ => rfl
    | ⟨1, _⟩ => rfl)
  have er : Read.ridx_main_v65 (ix2 r f) k = ix2 k f := funext fun a => Fin.ext (by
    match a with
    | ⟨0, _⟩ => rfl
    | ⟨1, _⟩ => rfl)
  have eb : Read.idx_main_v61 (Read.idx_main_v62 (ix2 r k)) = ix1 k := funext fun a => Fin.ext (by
    match a with
    | ⟨0, _⟩ => rfl)
  rw [el, er, Read.val_main_v64_apply, Read.val_main_v63_apply, Read.val_main_v62_apply, Read.val_main_v61_apply, eb, Read.val_main_call1_v0_apply,
    Read.val_main_call1_cst_apply, shapeCast_a_1a_apply]
  rfl

end Cert.ReferenceIdeal.Stages

end
-- ==== Proof.BoundaryValues.lean ====
/-
  The idealized kernel's buffers at each boundary of @main, as the reference's stages of the arguments.

  @main alternates host stretches and pallas regions. Walking its boundaries in order:
    * the first stretch computes, from the edge list alone, the source and destination node of every edge (the given edges
      followed by one self-loop per node) and the symmetric normalisation of every edge, and reshapes the first bias to a row;
    * the first region leaves x @ W0 (FirstRegion), which is the reference's first product;
    * each later stretch gathers the product's rows at the edges' sources, scales them by the normalisation and adds them up
      at the edges' destinations — the same operations, on the same operands, as the reference's — and reshapes the next bias;
    * each later region leaves max (aggregate + bias) 0 @ W (SecondRegion, ThirdRegion), which is the reference's next product
      (ReferenceStages: the reference adds the bias and clamps on the host, before its product);
    * the last stretch aggregates once more and adds the last bias.
  A buffer that a stretch does not write and a region does not own keeps its contents across it; that carries the edge
  sources, destinations and normalisation, and the arguments, to the places they are read.
-/
import proofs.«169086_j7327214207620_1_alg».proof.Proof.Gen.KernelIdeal.Frame
import proofs.«169086_j7327214207620_1_alg».proof.Proof.FirstRegion
import proofs.«169086_j7327214207620_1_alg».proof.Proof.SecondRegion
import proofs.«169086_j7327214207620_1_alg».proof.Proof.ThirdRegion
import proofs.«169086_j7327214207620_1_alg».proof.Proof.Gen.ReferenceIdeal.Read
import proofs.«169086_j7327214207620_1_alg».proof.Proof.ReferenceStages
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.Gcn

variable (m : (ℓ : Loc nD τ sig) → Buf (Elt Ideal) ℓ) (ρ : Dev nD → PrngReg) (c : Dev nD)

-- The arguments as launched: features, edge list, the three weights and biases.
set_option quotPrecheck false
local notation "x₀" => m ((c : Thread nD τ).loc main_arg0)
local notation "e₀" => m ((c : Thread nD τ).loc main_arg1)
local notation "w₀" => m ((c : Thread nD τ).loc main_arg2)
local notation "b₀" => m ((c : Thread nD τ).loc main_arg3)
local notation "w₁" => m ((c : Thread nD τ).loc main_arg4)
local notation "b₁" => m ((c : Thread nD τ).loc main_arg5)
local notation "w₂" => m ((c : Thread nD τ).loc main_arg6)
local notation "b₂" => m ((c : Thread nD τ).loc main_arg7)

/-- A buffer no operation of a host stretch writes keeps its contents across the stretch. -/
macro "host_keeps " ops:ident b:ident : tactic => `(tactic|
  exact StableHlo.after_of_forall_not_mem (b := Proc.devRef .tc $b) _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Entry of the first region: the edge data and the first bias row -/

theorem input_at_first : W1 m ρ c (Proc.devRef .tc main_arg0) = x₀ := by host_keeps hostOps0 main_arg0
theorem weight_at_first : W1 m ρ c (Proc.devRef .tc main_arg2) = w₀ := by host_keeps hostOps0 main_arg2
theorem bias0_at_first : W1 m ρ c (Proc.devRef .tc main_arg3) = b₀ := by host_keeps hostOps0 main_arg3
theorem weight1_at_first : W1 m ρ c (Proc.devRef .tc main_arg4) = w₁ := by host_keeps hostOps0 main_arg4
theorem bias1_at_first : W1 m ρ c (Proc.devRef .tc main_arg5) = b₁ := by host_keeps hostOps0 main_arg5
theorem weight2_at_first : W1 m ρ c (Proc.devRef .tc main_arg6) = w₂ := by host_keeps hostOps0 main_arg6
theorem bias2_at_first : W1 m ρ c (Proc.devRef .tc main_arg7) = b₂ := by host_keeps hostOps0 main_arg7

/-- The source node of every edge: the edge list's first row, then the self-loops. -/
theorem src_at_first : W1 m ρ c (Proc.devRef .tc main_v3) = Cert.ReferenceIdeal.Read.val_main_v3 (F := Ideal) e₀ := by
  dsimp only [W1, hostOps0]
  after_results_simp
  rfl

/-- The destination node of every edge: the edge list's second row, then the self-loops. -/
theorem dst_at_first : W1 m ρ c (Proc.devRef .tc main_v6) = Cert.ReferenceIdeal.Read.val_main_v6 (F := Ideal) e₀ := by
  dsimp only [W1, hostOps0]
  after_results_simp
  rfl

/-- The normalisation of every edge: rsqrt of the clamped degree at its source times that at its destination. -/
theorem norm_at_first : W1 m ρ c (Proc.devRef .tc main_v28) = Cert.ReferenceIdeal.Read.val_main_v28 (F := Ideal) e₀ := by
  dsimp only [W1, hostOps0]
  after_results_simp
  rfl

/-! ## Exit of the first region -/

theorem src_after_first : W2 m ρ c (Proc.devRef .tc main_v3) = Cert.ReferenceIdeal.Read.val_main_v3 (F := Ideal) e₀ :=
  (W2_of_ne m ρ c main_v3 (by decide)).trans (src_at_first m ρ c)
theorem dst_after_first : W2 m ρ c (Proc.devRef .tc main_v6) = Cert.ReferenceIdeal.Read.val_main_v6 (F := Ideal) e₀ :=
  (W2_of_ne m ρ c main_v6 (by decide)).trans (dst_at_first m ρ c)
theorem norm_after_first : W2 m ρ c (Proc.devRef .tc main_v28) = Cert.ReferenceIdeal.Read.val_main_v28 (F := Ideal) e₀ :=
  (W2_of_ne m ρ c main_v28 (by decide)).trans (norm_at_first m ρ c)
theorem bias0_after_first : W2 m ρ c (Proc.devRef .tc main_arg3) = b₀ :=
  (W2_of_ne m ρ c main_arg3 (by decide)).trans (bias0_at_first m ρ c)
theorem weight1_after_first : W2 m ρ c (Proc.devRef .tc main_arg4) = w₁ :=
  (W2_of_ne m ρ c main_arg4 (by decide)).trans (weight1_at_first m ρ c)
theorem bias1_after_first : W2 m ρ c (Proc.devRef .tc main_arg5) = b₁ :=
  (W2_of_ne m ρ c main_arg5 (by decide)).trans (bias1_at_first m ρ c)
theorem weight2_after_first : W2 m ρ c (Proc.devRef .tc main_arg6) = w₂ :=
  (W2_of_ne m ρ c main_arg6 (by decide)).trans (weight2_at_first m ρ c)
theorem bias2_after_first : W2 m ρ c (Proc.devRef .tc main_arg7) = b₂ :=
  (W2_of_ne m ρ c main_arg7 (by decide)).trans (bias2_at_first m ρ c)

/-- The first region leaves the reference's first product. -/
theorem product_after_first : W2 m ρ c (Proc.devRef .tc main_v30) = Cert.ReferenceIdeal.Read.val_main_v29 (F := Ideal) x₀ w₀ := by
  refine (W2_arr m ρ c 3).trans ((FirstRegion.array_eq (V1 m ρ) c).trans ?_)
  show lin (W1 m ρ c (Proc.devRef .tc main_arg0)) (W1 m ρ c (Proc.devRef .tc main_arg2)) = _
  rw [input_at_first, weight_at_first]
  exact (Cert.ReferenceIdeal.Stages.first_product _ _).symm

/-! ## Entry of the second region: the first aggregate and the first bias as a row -/

theorem src_at_second : W3 m ρ c (Proc.devRef .tc main_v3) = Cert.ReferenceIdeal.Read.val_main_v3 (F := Ideal) e₀ :=
  (show W3 m ρ c (Proc.devRef .tc main_v3) = W2 m ρ c (Proc.devRef .tc main_v3) from by host_keeps hostOps1 main_v3).trans (src_after_first m ρ c)
theorem dst_at_second : W3 m ρ c (Proc.devRef .tc main_v6) = Cert.ReferenceIdeal.Read.val_main_v6 (F := Ideal) e₀ :=
  (show W3 m ρ c (Proc.devRef .tc main_v6) = W2 m ρ c (Proc.devRef .tc main_v6) from by host_keeps hostOps1 main_v6).trans (dst_after_first m ρ c)
theorem norm_at_second : W3 m ρ c (Proc.devRef .tc main_v28) = Cert.ReferenceIdeal.Read.val_main_v28 (F := Ideal) e₀ :=
  (show W3 m ρ c (Proc.devRef .tc main_v28) = W2 m ρ c (Proc.devRef .tc main_v28) from by host_keeps hostOps1 main_v28).trans (norm_after_first m ρ c)
theorem weight1_at_second : W3 m ρ c (Proc.devRef .tc main_arg4) = w₁ :=
  (show W3 m ρ c (Proc.devRef .tc main_arg4) = W2 m ρ c (Proc.devRef .tc main_arg4) from by host_keeps hostOps1 main_arg4).trans (weight1_after_first m ρ c)
theorem bias1_at_second : W3 m ρ c (Proc.devRef .tc main_arg5) = b₁ :=
  (show W3 m ρ c (Proc.devRef .tc main_arg5) = W2 m ρ c (Proc.devRef .tc main_arg5) from by host_keeps hostOps1 main_arg5).trans (bias1_after_first m ρ c)
theorem weight2_at_second : W3 m ρ c (Proc.devRef .tc main_arg6) = w₂ :=
  (show W3 m ρ c (Proc.devRef .tc main_arg6) = W2 m ρ c (Proc.devRef .tc main_arg6) from by host_keeps hostOps1 main_arg6).trans (weight2_after_first m ρ c)
theorem bias2_at_second : W3 m ρ c (Proc.devRef .tc main_arg7) = b₂ :=
  (show W3 m ρ c (Proc.devRef .tc main_arg7) = W2 m ρ c (Proc.devRef .tc main_arg7) from by host_keeps hostOps1 main_arg7).trans (bias2_after_first m ρ c)

/-- The first aggregate: the first product's rows gathered at the edges' sources, scaled by the normalisation, added up at the
    edges' destinations — the reference's operations on the reference's operands. -/
theorem aggregate_at_second : W3 m ρ c (Proc.devRef .tc main_v43) = Cert.ReferenceIdeal.Read.val_main_v42 (F := Ideal) x₀ e₀ w₀ := by
  dsimp only [W3, hostOps1]
  after_results_simp
  rw [dst_after_first, product_after_first, src_after_first, norm_after_first]
  unfold Cert.ReferenceIdeal.Read.val_main_v42 Cert.ReferenceIdeal.Read.val_main_v41 Cert.ReferenceIdeal.Read.val_main_v40 Cert.ReferenceIdeal.Read.val_main_cst_7 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_c_6 Cert.ReferenceIdeal.Read.val_main_v31 Cert.ReferenceIdeal.Read.val_main_v30 Cert.ReferenceIdeal.Read.val_main_c_5
  rfl

/-- The first bias, reshaped to a row. -/
theorem bias0_row_at_second : W3 m ρ c (Proc.devRef .tc main_v44)
    = shapeCast S1x128 (b₀ : (⟨S128, .f32⟩ : BufTy).Contents (Elt Ideal)) shapeCasts_S128_S1x128 := by
  dsimp only [W3, hostOps1]
  after_results_simp
  rw [bias0_after_first]
  rfl

/-! ## Exit of the second region -/

theorem src_after_second : W4 m ρ c (Proc.devRef .tc main_v3) = Cert.ReferenceIdeal.Read.val_main_v3 (F := Ideal) e₀ :=
  (W4_of_ne m ρ c main_v3 (by decide)).trans (src_at_second m ρ c)
theorem dst_after_second : W4 m ρ c (Proc.devRef .tc main_v6) = Cert.ReferenceIdeal.Read.val_main_v6 (F := Ideal) e₀ :=
  (W4_of_ne m ρ c main_v6 (by decide)).trans (dst_at_second m ρ c)
theorem norm_after_second : W4 m ρ c (Proc.devRef .tc main_v28) = Cert.ReferenceIdeal.Read.val_main_v28 (F := Ideal) e₀ :=
  (W4_of_ne m ρ c main_v28 (by decide)).trans (norm_at_second m ρ c)
theorem bias1_after_second : W4 m ρ c (Proc.devRef .tc main_arg5) = b₁ :=
  (W4_of_ne m ρ c main_arg5 (by decide)).trans (bias1_at_second m ρ c)
theorem weight2_after_second : W4 m ρ c (Proc.devRef .tc main_arg6) = w₂ :=
  (W4_of_ne m ρ c main_arg6 (by decide)).trans (weight2_at_second m ρ c)
theorem bias2_after_second : W4 m ρ c (Proc.devRef .tc main_arg7) = b₂ :=
  (W4_of_ne m ρ c main_arg7 (by decide)).trans (bias2_at_second m ρ c)

/-- The second region leaves the reference's second product. -/
theorem product_after_second : W4 m ρ c (Proc.devRef .tc main_v45) = Cert.ReferenceIdeal.Read.val_main_v47 (F := Ideal) x₀ e₀ w₀ b₀ w₁ := by
  refine (W4_arr m ρ c 3).trans ((SecondRegion.array_eq (V3 m ρ) c).trans ?_)
  show actLin (W3 m ρ c (Proc.devRef .tc main_v43)) (W3 m ρ c (Proc.devRef .tc main_v44)) (W3 m ρ c (Proc.devRef .tc main_arg4)) = _
  rw [aggregate_at_second, bias0_row_at_second, weight1_at_second]
  exact (Cert.ReferenceIdeal.Stages.second_product _ _ _ _ _ _).symm

/-! ## Entry of the third region: the second aggregate and the second bias as a row -/

theorem src_at_third : W5 m ρ c (Proc.devRef .tc main_v3) = Cert.ReferenceIdeal.Read.val_main_v3 (F := Ideal) e₀ :=
  (show W5 m ρ c (Proc.devRef .tc main_v3) = W4 m ρ c (Proc.devRef .tc main_v3) from by host_keeps hostOps2 main_v3).trans (src_after_second m ρ c)
theorem dst_at_third : W5 m ρ c (Proc.devRef .tc main_v6) = Cert.ReferenceIdeal.Read.val_main_v6 (F := Ideal) e₀ :=
  (show W5 m ρ c (Proc.devRef .tc main_v6) = W4 m ρ c (Proc.devRef .tc main_v6) from by host_keeps hostOps2 main_v6).trans (dst_after_second m ρ c)
theorem norm_at_third : W5 m ρ c (Proc.devRef .tc main_v28) = Cert.ReferenceIdeal.Read.val_main_v28 (F := Ideal) e₀ :=
  (show W5 m ρ c (Proc.devRef .tc main_v28) = W4 m ρ c (Proc.devRef .tc main_v28) from by host_keeps hostOps2 main_v28).trans (norm_after_second m ρ c)
theorem weight2_at_third : W5 m ρ c (Proc.devRef .tc main_arg6) = w₂ :=
  (show W5 m ρ c (Proc.devRef .tc main_arg6) = W4 m ρ c (Proc.devRef .tc main_arg6) from by host_keeps hostOps2 main_arg6).trans (weight2_after_second m ρ c)
theorem bias2_at_third : W5 m ρ c (Proc.devRef .tc main_arg7) = b₂ :=
  (show W5 m ρ c (Proc.devRef .tc main_arg7) = W4 m ρ c (Proc.devRef .tc main_arg7) from by host_keeps hostOps2 main_arg7).trans (bias2_after_second m ρ c)

/-- The second aggregate. -/
theorem aggregate_at_third : W5 m ρ c (Proc.devRef .tc main_v58) = Cert.ReferenceIdeal.Read.val_main_v60 (F := Ideal) x₀ e₀ w₀ b₀ w₁ := by
  dsimp only [W5, hostOps2]
  after_results_simp
  rw [dst_after_second, product_after_second, src_after_second, norm_after_second]
  unfold Cert.ReferenceIdeal.Read.val_main_v60 Cert.ReferenceIdeal.Read.val_main_v59 Cert.ReferenceIdeal.Read.val_main_v58 Cert.ReferenceIdeal.Read.val_main_cst_10 Cert.ReferenceIdeal.Read.val_main_v57 Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_c_9 Cert.ReferenceIdeal.Read.val_main_v49 Cert.ReferenceIdeal.Read.val_main_v48 Cert.ReferenceIdeal.Read.val_main_c_8
  rfl

/-- The second bias, reshaped to a row. -/
theorem bias1_row_at_third : W5 m ρ c (Proc.devRef .tc main_v59)
    = shapeCast S1x128 (b₁ : (⟨S128, .f32⟩ : BufTy).Contents (Elt Ideal)) shapeCasts_S128_S1x128 := by
  dsimp only [W5, hostOps2]
  after_results_simp
  rw [bias1_after_second]
  rfl

/-! ## Exit of the third region -/

theorem src_after_third : W6 m ρ c (Proc.devRef .tc main_v3) = Cert.ReferenceIdeal.Read.val_main_v3 (F := Ideal) e₀ :=
  (W6_of_ne m ρ c main_v3 (by decide)).trans (src_at_third m ρ c)
theorem dst_after_third : W6 m ρ c (Proc.devRef .tc main_v6) = Cert.ReferenceIdeal.Read.val_main_v6 (F := Ideal) e₀ :=
  (W6_of_ne m ρ c main_v6 (by decide)).trans (dst_at_third m ρ c)
theorem norm_after_third : W6 m ρ c (Proc.devRef .tc main_v28) = Cert.ReferenceIdeal.Read.val_main_v28 (F := Ideal) e₀ :=
  (W6_of_ne m ρ c main_v28 (by decide)).trans (norm_at_third m ρ c)
theorem bias2_after_third : W6 m ρ c (Proc.devRef .tc main_arg7) = b₂ :=
  (W6_of_ne m ρ c main_arg7 (by decide)).trans (bias2_at_third m ρ c)

/-- The third region leaves the reference's third product. -/
theorem product_after_third : W6 m ρ c (Proc.devRef .tc main_v60) = Cert.ReferenceIdeal.Read.val_main_v65 (F := Ideal) x₀ e₀ w₀ b₀ w₁ b₁ w₂ := by
  refine (W6_arr m ρ c 3).trans ((ThirdRegion.array_eq (V5 m ρ) c).trans ?_)
  show actLin (W5 m ρ c (Proc.devRef .tc main_v58)) (W5 m ρ c (Proc.devRef .tc main_v59)) (W5 m ρ c (Proc.devRef .tc main_arg6)) = _
  rw [aggregate_at_third, bias1_row_at_third, weight2_at_third]
  exact (Cert.ReferenceIdeal.Stages.third_product _ _ _ _ _ _ _ _).symm

/-! ## The result -/

/-- THE RESULT BUFFER at the last boundary: the third aggregate plus the last bias — the reference's result stage of the
    arguments as launched. -/
theorem result_value : W7 m ρ c (Proc.devRef .tc main_v76) = Cert.ReferenceIdeal.Read.val_main_v81 (F := Ideal) x₀ e₀ w₀ b₀ w₁ b₁ w₂ b₂ := by
  dsimp only [W7, hostOps3]
  after_results_simp
  rw [dst_after_third, product_after_third, src_after_third, norm_after_third, bias2_after_third]
  unfold Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_cst_13 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_c_12 Cert.ReferenceIdeal.Read.val_main_v67 Cert.ReferenceIdeal.Read.val_main_v66 Cert.ReferenceIdeal.Read.val_main_c_11
  rfl

end Cert.KernelIdeal.Fold

end
-- ==== Proof.lean ====
/-
  Three stacked graph-convolution layers: the tiled kernel's forward pass against the reference, over the extended reals.

  Both programs build, from the edge list alone, the source and destination of every edge (the given edges and one self-loop
  per node) and the symmetric normalisation rsqrt(max(deg, 1)) at both ends; a layer then multiplies the node features by a
  weight, gathers the product's rows at the edges' sources, scales them, and adds them up at the destinations. They differ in
  where the dense half is computed and where the bias and the clamp sit. The reference computes h @ W as one product on the
  host and adds the bias and clamps at zero after the aggregation. The kernel computes the product in a kernel region over ten
  blocks of 5000 rows, with both operands rounded to bf16 — the identity on extended reals — and moves the previous layer's
  bias and clamp into the next region, in front of its product; the last bias is added on the host. A product's entry (r, f)
  reads row r of the left operand alone, and the bias and clamp are entrywise, so the tiling changes nothing and
      max (aggregate + b) 0 @ W
  is the same array whichever side of the region boundary adds b and clamps (LayerSpec, FirstRegion … ThirdRegion,
  ReferenceStages). Everything else is the same operation on the same operands in both programs, so the kernel's buffers at
  every boundary of @main are the reference's stages of the arguments (BoundaryValues), the last of them the result. No
  finiteness of the inputs is used: the two sides are the same sums of the same products, and the gathers and scatter-adds,
  whatever the edge indices, are the same functions of the same operands.

  The three frames: the kernel's two are the generated ones; the reference's is its generated run with the result dropped.
  The idealization rewrote no operation, so `preserves` is trivial.
-/
import proofs.«169086_j7327214207620_1_alg».proof.Defs
import proofs.«169086_j7327214207620_1_alg».proof.Proof.Gen.Kernel
import proofs.«169086_j7327214207620_1_alg».proof.Proof.Gen.Kernel.Frame
import proofs.«169086_j7327214207620_1_alg».proof.Proof.Gen.KernelIdeal
import proofs.«169086_j7327214207620_1_alg».proof.Proof.Gen.KernelIdeal.Frame
import proofs.«169086_j7327214207620_1_alg».proof.Proof.Gen.ReferenceIdeal
import proofs.«169086_j7327214207620_1_alg».proof.Proof.Gen.ReferenceIdeal.Run
import proofs.«169086_j7327214207620_1_alg».proof.Proof.Gen.ReferenceIdeal.Read
import proofs.«169086_j7327214207620_1_alg».proof.Proof.Gen.Pre_finite_inputs
import proofs.«169086_j7327214207620_1_alg».proof.Proof.KernelRun
import proofs.«169086_j7327214207620_1_alg».proof.Proof.BoundaryValues
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments in their result buffers. -/
theorem algebraic : Cert.algebraic_KernelIdeal_ReferenceIdeal := by
  intro m ρ m' ρ' _ hagree
  refine ⟨fun c => Cert.ReferenceIdeal.Read.val_main_v81 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v81_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
